-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S65 : Shape := ⟨1, ![65]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S65 : S_.BroadcastsInDim S65 (![] : Fin 0 → Fin S65.rank)
  reducesTo_S65_S_d0 : S65.ReducesTo [0] S_

variable [Facts]

def fn {F : FTy → Type} [FloatOps F] (main_arg0 : FVec F S256x2048 .f32) (main_arg1 : FVec F S65 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S65 .f32 := Host.absf main_arg1
  let main_cst_0 : FVec F S_ .f32 := constant S_ .f32 0x7F800000#32
  let main_v5 : FVec F S65 .f32 := broadcastInDim S65 ![] bcast_S_S65 main_cst_0
  let main_v6 : IVec S65 1 := cmpf .olt main_v4 main_v5
  let main_c_1 : IVec S_ 1 := constantI S_ 1 1#1
  let main_v7 : IVec S_ 1 := (fun x v => Host.reduce IntOp.andi x v reducesTo_S65_S_d0 h_S_) main_v6 main_c_1
  let main_v8 : IVec S_ 1 := andi main_v3 main_v7
  main_v8
-- ==== Kernel.lean ====
abbrev S256x2048 : Shape := ⟨2, ![256, 2048]⟩
abbrev S65 : Shape := ⟨1, ![65]⟩
abbrev S64 : Shape := ⟨1, ![64]⟩
abbrev S1x64 : Shape := ⟨2, ![1, 64]⟩
abbrev S256x2048x64 : Shape := ⟨3, ![256, 2048, 64]⟩
abbrev S128x128 : Shape := ⟨2, ![128, 128]⟩
abbrev S128x128x64 : Shape := ⟨3, ![128, 128, 64]⟩
abbrev S1x1x64 : Shape := ⟨3, ![1, 1, 64]⟩
abbrev S128x128x1 : Shape := ⟨3, ![128, 128, 1]⟩

abbrev nBuf : Space → Nat
  | .hbm => 7
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S65, .f32⟩
  | .hbm, ⟨2, _⟩ => ⟨S64, .f32⟩
  | .hbm, ⟨3, _⟩ => ⟨S1x64, .f32⟩
  | .hbm, ⟨4, _⟩ => ⟨S64, .f32⟩
  | .hbm, ⟨5, _⟩ => ⟨S1x64, .f32⟩
  | .hbm, ⟨6, _⟩ => ⟨S256x2048x64, .f32⟩
  | .local _ .vmem, ⟨0, _⟩ => ⟨S128x128, .f32⟩
  | .local _ .vmem, ⟨1, _⟩ => ⟨S128x128, .f32⟩
  | .local _ .vmem, ⟨2, _⟩ => ⟨S1x64, .f32⟩
  | .local _ .vmem, ⟨3, _⟩ => ⟨S1x64, .f32⟩
  | .local _ .vmem, ⟨4, _⟩ => ⟨S128x128x64, .f32⟩
  | .local _ .vmem, ⟨5, _⟩ => ⟨S128x128x64, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S65_S64_0 : S65.Slices ![0] S64
  shapeCasts_S64_S1x64 : S64.ShapeCasts S1x64
  slices_S65_S64_1 : S65.Slices ![1] S64
  inb_S128x128_S128x128_0_0 : ∀ a, (![0, 0] : Fin 2 → Nat) a + S128x128.size a ≤ S128x128.size a
  h_S128x128 : 0 < S128x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  shapeCasts_S128x128_S128x128x1 : S128x128.ShapeCasts S128x128x1
  broadcasts_S128x128x1_S128x128x64 : S128x128x1.Broadcasts S128x128x64
  broadcasts_S1x1x64_S128x128x64 : S1x1x64.Broadcasts S128x128x64
  inb_S128x128x64_S128x128x64_0_0_0 : ∀ a, (![0, 0, 0] : Fin 3 → Nat) a + S128x128x64.size a ≤ S128x128x64.size a
  h_S128x128x64 : 0 < S128x128x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S256x2048.size a
  hwx0_0 : ∀ i : grid0.Coords, EltTy.bits .f32 = 32 ∨ (Rect.block (s := S256x2048) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128x64.size a ≤ S256x2048x64.size a
  hwx0_3 : ∀ i : grid0.Coords, EltTy.bits .f32 = 32 ∨ (Rect.block (s := S256x2048x64) S128x128x64.size (cc0_transform_3 i) (hinb0_3 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x2048 : Shape := ⟨2, ![256, 2048]⟩
abbrev S65 : Shape := ⟨1, ![65]⟩
abbrev S64 : Shape := ⟨1, ![64]⟩
abbrev S256x2048x1 : Shape := ⟨3, ![256, 2048, 1]⟩
abbrev S1x1x64 : Shape := ⟨3, ![1, 1, 64]⟩
abbrev S256x2048x64 : Shape := ⟨3, ![256, 2048, 64]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S65, .f32⟩
  | .hbm, ⟨2, _⟩ => ⟨S64, .f32⟩
  | .hbm, ⟨3, _⟩ => ⟨S64, .f32⟩
  | .hbm, ⟨4, _⟩ => ⟨S256x2048x1, .f32⟩
  | .hbm, ⟨5, _⟩ => ⟨S1x1x64, .f32⟩
  | .hbm, ⟨6, _⟩ => ⟨S256x2048x64, .f32⟩
  | .hbm, ⟨7, _⟩ => ⟨S256x2048x64, .f32⟩
  | .hbm, ⟨8, _⟩ => ⟨S256x2048x64, .i1⟩
  | .hbm, ⟨9, _⟩ => ⟨S1x1x64, .f32⟩
  | .hbm, ⟨10, _⟩ => ⟨S256x2048x64, .f32⟩
  | .hbm, ⟨11, _⟩ => ⟨S256x2048x64, .f32⟩
  | .hbm, ⟨12, _⟩ => ⟨S256x2048x64, .i1⟩
  | .hbm, ⟨13, _⟩ => ⟨S1x1x64, .f32⟩
  | .hbm, ⟨14, _⟩ => ⟨S256x2048x64, .f32⟩
  | .hbm, ⟨15, _⟩ => ⟨S256x2048x64, .f32⟩
  | .hbm, ⟨16, _⟩ => ⟨S256x2048x64, .f32⟩
  | .hbm, ⟨17, _⟩ => ⟨S64, .f32⟩
  | .hbm, ⟨18, _⟩ => ⟨S1x1x64, .f32⟩
  | .hbm, ⟨19, _⟩ => ⟨S256x2048x64, .f32⟩
  | .hbm, ⟨20, _⟩ => ⟨S256x2048x64, .f32⟩
  | .hbm, ⟨21, _⟩ => ⟨S256x2048x64, .i1⟩
  | .hbm, ⟨22, _⟩ => ⟨S_, .f32⟩
  | .hbm, ⟨23, _⟩ => ⟨S_, .f32⟩
  | .hbm, ⟨24, _⟩ => ⟨S256x2048x64, .f32⟩
  | .hbm, ⟨25, _⟩ => ⟨S256x2048x64, .f32⟩
  | .hbm, ⟨26, _⟩ => ⟨S256x2048x64, .f32⟩
  | .hbm, ⟨27, _⟩ => ⟨S256x2048x64, .f32⟩
  | .hbm, ⟨28, _⟩ => ⟨S256x2048x64, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v20 : Ref sig .tc := ⟨.hbm, 26, rfl⟩
abbrev main_call1_v0 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  slices_S65_S64_0 : S65.Slices ![0] S64
  slices_S65_S64_1 : S65.Slices ![1] S64
  bcast_S256x2048_S256x2048x1_0_1 : S256x2048.BroadcastsInDim S256x2048x1 (![0, 1] : Fin 2 → Fin S256x2048x1.rank)
  bcast_S64_S1x1x64_2 : S64.BroadcastsInDim S1x1x64 (![2] : Fin 1 → Fin S1x1x64.rank)
  bcast_S256x2048x1_S256x2048x64_0_1_2 : S256x2048x1.BroadcastsInDim S256x2048x64 (![0, 1, 2] : Fin 3 → Fin S256x2048x64.rank)
  bcast_S1x1x64_S256x2048x64_0_1_2 : S1x1x64.BroadcastsInDim S256x2048x64 (![0, 1, 2] : Fin 3 → Fin S256x2048x64.rank)
  bcast_S_S256x2048x64 : S_.BroadcastsInDim S256x2048x64 (![] : Fin 0 → Fin S256x2048x64.rank)

variable [Facts₀]

class Facts : Prop extends Facts₀ where

variable [Facts]
-- ==== Proof.Encoding.lean ====
/-
  The piecewise-linear bin encoding, as ONE function of the two argument arrays.

  A feature value `x` is set against the `64` consecutive bins cut by `65` edges `B 0 ≤ … ≤ B 64`. Against the bin
  `[lo, hi)` it is encoded as
      `(x - lo) / (hi - lo)`   when `lo ≤ x` and `x < hi`   (the value lies in the bin: how far into it),
      `0`                     when not, and `x < hi`           (the value lies below the bin),
      `1`                     otherwise                        (the value lies at or above the bin's upper edge),
  the two comparisons ordered ones (false on a NaN; there is none among the extended reals). `encoded X B` is the
  `[256, 2048, 64]` array whose entry `(b, l, d)` is the encoding of `X (b, l)` against bin `d`, whose edges are
  `B d` and `B (d + 1)`.

  Nothing here is particular to an instance of the float operations: both programs compute exactly this term,
  entry by entry, and no law of arithmetic is needed to join them.
-/
import Idealize.ShloMosaic.PureOps.Ideal
import Idealize.ShloMosaic.Lib.ValueIdx

noncomputable section

namespace Cert.Encoding

open Idealize.ShloMosaic Idealize.ShloMosaic.ValueIdx

variable {F : FTy → Type} [FloatOps F]

/-- The encoding of `x` against a bin with edges `lo`, `hi` whose width is given separately as `w`. -/
def encW (x lo hi w : F .f32) : F .f32 :=
  Scalar.select (IntOp.andi (FloatOps.cmpf .oge x lo) (FloatOps.cmpf .olt x hi))
    (FloatOps.divf (FloatOps.subf x lo) w)
    (Scalar.select (FloatOps.cmpf .olt x hi) (Scalar.ofBits .f32 0x00000000#32) (Scalar.ofBits .f32 0x3F800000#32))

/-- The encoding of `x` against the bin `[lo, hi)`: the width is `hi - lo`. -/
def enc (x lo hi : F .f32) : F .f32 := encW x lo hi (FloatOps.subf hi lo)

theorem enc_congr {x x' lo lo' hi hi' : F .f32} (hx : x = x') (hl : lo = lo') (hh : hi = hi') :
    enc x lo hi = enc x' lo' hi' := by
  subst hx hl hh; rfl

theorem encW_congr {x x' lo lo' hi hi' w w' : F .f32} (hx : x = x') (hl : lo = lo') (hh : hi = hi') (hw : w = w') :
    encW x lo hi w = encW x' lo' hi' w' := by
  subst hx hl hh hw; rfl

/-- Bin `d`'s lower edge is edge `d` of the `65`. -/
abbrev loEdge (d : Fin 64) : (⟨1, ![65]⟩ : Shape).Idx := ix1 (n := 65) ⟨d.val, by omega⟩
/-- Bin `d`'s upper edge is edge `d + 1`. -/
abbrev hiEdge (d : Fin 64) : (⟨1, ![65]⟩ : Shape).Idx := ix1 (n := 65) ⟨1 + d.val, by omega⟩

/-- The whole result: entry `(b, l, d)` encodes `X (b, l)` against bin `d` of the edges `B`. -/
def encoded (X : (⟨2, ![256, 2048]⟩ : Shape).Idx → F .f32) (B : (⟨1, ![65]⟩ : Shape).Idx → F .f32) :
    (⟨3, ![256, 2048, 64]⟩ : Shape).Idx → F .f32 :=
  fun i => enc (X (ix2 (n0 := 256) (n1 := 2048) (i 0) (i 1))) (B (loEdge (i 2))) (B (hiEdge (i 2)))

theorem encoded_apply (X : (⟨2, ![256, 2048]⟩ : Shape).Idx → F .f32) (B : (⟨1, ![65]⟩ : Shape).Idx → F .f32)
    (b : Fin 256) (l : Fin 2048) (d : Fin 64) :
    encoded X B (ix3 b l d) = enc (X (ix2 b l)) (B (loEdge d)) (B (hiEdge d)) := rfl

end Cert.Encoding

end
-- ==== Proof.RefEncoding.lean ====
/-
  The reference computes the encoding.

  The reference lays the feature array along a new last axis and repeats it over the `64` bins, lays the lower
  edges `B[0:64]`, the upper edges `B[1:65]` and their difference along the last axis and repeats them over all
  `256 × 2048` features, and combines the four arrays entry by entry. Read at an entry `(b, l, d)`, each repeated array
  is one element of an argument — `X (b, l)`, `B d`, `B (d + 1)`, `B (d + 1) - B d` — and the combination is the
  encoding of `X (b, l)` against bin `d`. The host's quotient and the vector unit's are one function of the extended
  reals, which is the only place the instance is used.
-/
import proofs.«153169_j58961311039690_1_alg».proof.Proof.Gen.ReferenceIdeal.Read
import proofs.«153169_j58961311039690_1_alg».proof.Proof.Encoding

noncomputable section

namespace Cert.ReferenceIdeal.RefValue

open Cert.ReferenceIdeal Cert.ReferenceIdeal.Read Cert.Encoding
open Idealize.ShloMosaic Idealize.ShloMosaic.ValueIdx

variable {F : FTy → Type} [FloatOps F]

/-! ## The feature array, repeated over the bins (three copies of one stage) -/

theorem feature_ge (x0 : (⟨S256x2048, .f32⟩ : BufTy).Contents (Elt F)) (i : S256x2048x64.Idx) :
    val_main_v4 (F := F) x0 i = x0 (ix2 (n0 := 256) (n1 := 2048) (i 0) (i 1)) := by
  rw [val_main_v4_apply, val_main_v2_apply]
  exact congrArg x0 (funext fun a => Fin.ext (by match a with | ⟨0, _⟩ => rfl | ⟨1, _⟩ => rfl))

theorem feature_lt (x0 : (⟨S256x2048, .f32⟩ : BufTy).Contents (Elt F)) (i : S256x2048x64.Idx) :
    val_main_v8 (F := F) x0 i = x0 (ix2 (n0 := 256) (n1 := 2048) (i 0) (i 1)) := by
  rw [val_main_v8_apply, val_main_v2_apply]
  exact congrArg x0 (funext fun a => Fin.ext (by match a with | ⟨0, _⟩ => rfl | ⟨1, _⟩ => rfl))

theorem feature_sub (x0 : (⟨S256x2048, .f32⟩ : BufTy).Contents (Elt F)) (i : S256x2048x64.Idx) :
    val_main_v12 (F := F) x0 i = x0 (ix2 (n0 := 256) (n1 := 2048) (i 0) (i 1)) := by
  rw [val_main_v12_apply, val_main_v2_apply]
  exact congrArg x0 (funext fun a => Fin.ext (by match a with | ⟨0, _⟩ => rfl | ⟨1, _⟩ => rfl))

/-! ## The edges, repeated over the features -/

/-- The lower edges `B[0:64]` under the comparison: entry `(b, l, d)` is edge `d`. -/
theorem lower_ge (x1 : (⟨S65, .f32⟩ : BufTy).Contents (Elt F)) (i : S256x2048x64.Idx) :
    val_main_v5 (F := F) x1 i = x1 (loEdge (i 2)) := by
  rw [val_main_v5_apply, val_main_v3_apply, val_main_v0_apply]
  exact congrArg x1 (funext fun a => Fin.ext (by match a with | ⟨0, _⟩ => rfl))

/-- The upper edges `B[1:65]` under the comparison: entry `(b, l, d)` is edge `d + 1`. -/
theorem upper_lt (x1 : (⟨S65, .f32⟩ : BufTy).Contents (Elt F)) (i : S256x2048x64.Idx) :
    val_main_v9 (F := F) x1 i = x1 (hiEdge (i 2)) := by
  rw [val_main_v9_apply, val_main_v7_apply, val_main_v1_apply]
  exact congrArg x1 (funext fun a => Fin.ext (by match a with | ⟨0, _⟩ => rfl))

/-- The lower edges under the subtraction. -/
theorem lower_sub (x1 : (⟨S65, .f32⟩ : BufTy).Contents (Elt F)) (i : S256x2048x64.Idx) :
    val_main_v13 (F := F) x1 i = x1 (loEdge (i 2)) := by
  rw [val_main_v13_apply, val_main_v11_apply, val_main_v0_apply]
  exact congrArg x1 (funext fun a => Fin.ext (by match a with | ⟨0, _⟩ => rfl))

/-- The bin widths `B[1:65] - B[0:64]`, taken on the `64` edges and then repeated: entry `(b, l, d)` is
    `B (d + 1) - B d`. -/
theorem width (x1 : (⟨S65, .f32⟩ : BufTy).Contents (Elt F)) (i : S256x2048x64.Idx) :
    val_main_v17 (F := F) x1 i = FloatOps.subf (x1 (hiEdge (i 2))) (x1 (loEdge (i 2))) := by
  rw [val_main_v17_apply, val_main_v16_apply, val_main_v15_apply, val_main_v1_apply, val_main_v0_apply]
  exact congrArg₂ FloatOps.subf
    (congrArg x1 (funext fun a => Fin.ext (by match a with | ⟨0, _⟩ => rfl)))
    (congrArg x1 (funext fun a => Fin.ext (by match a with | ⟨0, _⟩ => rfl)))

/-- The two constants of the outer cases, repeated everywhere. -/
theorem below (i : S256x2048x64.Idx) : val_main_call0_v0 (F := F) i = Scalar.ofBits .f32 0x00000000#32 := by
  rw [val_main_call0_v0_apply, val_main_cst_apply]
theorem above (i : S256x2048x64.Idx) : val_main_call0_v1 (F := F) i = Scalar.ofBits .f32 0x3F800000#32 := by
  rw [val_main_call0_v1_apply, val_main_cst_0_apply]

/-! ## The result -/

/-- THE REFERENCE'S RESULT, over the extended reals, is the encoding of the two arguments. -/
theorem result_eq (x0 : (⟨S256x2048, .f32⟩ : BufTy).Contents (Elt Ideal)) (x1 : (⟨S65, .f32⟩ : BufTy).Contents (Elt Ideal)) :
    val_main_v21 (F := Ideal) x0 x1 = encoded (F := Ideal) x0 x1 := by
  funext i
  rw [val_main_v21_apply, val_main_v19_apply, val_main_v6_apply, val_main_v10_apply, val_main_v18_apply,
    val_main_v14_apply, val_main_call1_v0_apply, val_main_v20_apply, val_main_v10_apply,
    feature_ge, lower_ge, feature_lt, upper_lt, feature_sub, lower_sub, width, below, above]
  rfl

end Cert.ReferenceIdeal.RefValue

end
-- ==== Proof.Payload.lean ====
/-
  What the kernel body stores, at one entry of the block.

  At a grid point the body holds a `[128, 128]` block `P0` of features and the two `[1, 64]` rows `P1` (lower edges)
  and `P2` (upper edges). It views `P0` as `[128, 128, 1]` and repeats it over the `64` bins, views each row as
  `[1, 1, 64]` and repeats it over the `128 × 128` features — the widths `P2 - P1` being taken on the `[1, 1, 64]` rows
  before they are repeated — and combines the four arrays entry by entry. At entry `(p, q, d)` the repeated block is
  `P0 (p, q)`, the repeated rows are `P1 (0, d)` and `P2 (0, d)`, and so the stored value is the encoding of `P0 (p, q)`
  against the bin `[P1 (0, d), P2 (0, d))`. Every view and repetition keeps the row-major position or drops a unit
  axis, which is all the layout lemmas ask.
-/
import proofs.«153169_j58961311039690_1_alg».proof.Proof.Gen.KernelIdeal.Skeleton
import proofs.«153169_j58961311039690_1_alg».proof.Proof.Encoding
import Idealize.ShloMosaic.Lib.Pipeline.Value

noncomputable section

namespace Cert.KernelIdeal.Body

open Cert.KernelIdeal Cert.KernelIdeal.Gen Cert.Encoding
open Idealize.ShloMosaic Idealize.ShloMosaic.ValueIdx

variable {F : FTy → Type} [FloatOps F]

/-- The feature block with a unit last axis, repeated over the bins. -/
abbrev overBins (P0 : Vec F S128x128 .f32) : FVec F S128x128x64 .f32 :=
  broadcastTo S128x128x64 (shapeCast S128x128x1 P0 shapeCasts_S128x128_S128x128x1) broadcasts_S128x128x1_S128x128x64

/-- A row of edges with two unit leading axes. -/
abbrev asRow (P : Vec F S1x64 .f32) : FVec F S1x1x64 .f32 :=
  shapeCast S1x1x64 (shapeCast S1x64 P shapeCasts_S1x64_S1x64) shapeCasts_S1x64_S1x1x64

/-- Such a row repeated over the features. -/
abbrev overFeatures (E : FVec F S1x1x64 .f32) : FVec F S128x128x64 .f32 :=
  broadcastTo S128x128x64 E broadcasts_S1x1x64_S128x128x64

/-- The repeated feature block at `(p, q, d)` is the block at `(p, q)`. -/
theorem overBins_apply (P0 : Vec F S128x128 .f32) (p q : Fin 128) (d : Fin 64) :
    overBins P0 (ix3 p q d) = P0 (ix2 p q) := by
  refine (broadcastTo_apply _ _ (ix3 p q d) (ix3 p q (0 : Fin 1)) (fun a => match a with
    | ⟨0, _⟩ => by show p.val = (if (128 : Nat) = 1 then 0 else p.val); rw [if_neg (by decide)]
    | ⟨1, _⟩ => by show q.val = (if (128 : Nat) = 1 then 0 else q.val); rw [if_neg (by decide)]
    | ⟨2, _⟩ => by show 0 = (if (1 : Nat) = 1 then 0 else d.val); rw [if_pos rfl])).trans ?_
  exact shapeCast_apply _ _ (ix3 p q (0 : Fin 1)) (ix2 p q) (by
    rw [Shape.rowMajor_val_two, Shape.rowMajor_val_three]
    show p.val * 128 + q.val = (p.val * 128 + q.val) * 1 + 0; omega)

/-- A row viewed as `[1, 1, 64]` at `(0, 0, d)` is the row at `(0, d)`. -/
theorem asRow_apply (P : Vec F S1x64 .f32) (d : Fin 64) :
    asRow P (ix3 (0 : Fin 1) (0 : Fin 1) d) = P (ix2 (0 : Fin 1) d) := by
  refine (shapeCast_apply _ _ (ix3 (0 : Fin 1) (0 : Fin 1) d) (ix2 (0 : Fin 1) d) (by
    rw [Shape.rowMajor_val_two, Shape.rowMajor_val_three]
    show 0 * 64 + d.val = (0 * 1 + 0) * 64 + d.val; omega)).trans ?_
  exact shapeCast_apply _ _ (ix2 (0 : Fin 1) d) (ix2 (0 : Fin 1) d) rfl

/-- A `[1, 1, 64]` row repeated over the features, at `(p, q, d)`, is the row at `(0, 0, d)`. -/
theorem overFeatures_apply (E : FVec F S1x1x64 .f32) (p q : Fin 128) (d : Fin 64) :
    overFeatures E (ix3 p q d) = E (ix3 (0 : Fin 1) (0 : Fin 1) d) :=
  broadcastTo_apply _ _ (ix3 p q d) (ix3 (0 : Fin 1) (0 : Fin 1) d) (fun a => match a with
    | ⟨0, _⟩ => by show 0 = (if (1 : Nat) = 1 then 0 else p.val); rw [if_pos rfl]
    | ⟨1, _⟩ => by show 0 = (if (1 : Nat) = 1 then 0 else q.val); rw [if_pos rfl]
    | ⟨2, _⟩ => by show d.val = (if (64 : Nat) = 1 then 0 else d.val); rw [if_neg (by decide)])

/-- The stored value is the four repeated arrays combined entry by entry (the body's text, named). -/
theorem stored_eq (P0 : Vec F S128x128 .f32) (P1 P2 : Vec F S1x64 .f32) (j : S128x128x64.Idx) :
    k0_pay1 P0 P1 P2 j
      = encW (overBins P0 j) (overFeatures (asRow P1) j) (overFeatures (asRow P2) j)
          (overFeatures (subf (asRow P2) (asRow P1)) j) := rfl

/-- THE STORED VALUE at `(p, q, d)`: the encoding of `P0 (p, q)` against the bin `[P1 (0, d), P2 (0, d))`. -/
theorem stored_apply (P0 : Vec F S128x128 .f32) (P1 P2 : Vec F S1x64 .f32) (p q : Fin 128) (d : Fin 64) :
    k0_pay1 P0 P1 P2 (ix3 p q d) = enc (P0 (ix2 p q)) (P1 (ix2 (0 : Fin 1) d)) (P2 (ix2 (0 : Fin 1) d)) := by
  refine (stored_eq P0 P1 P2 (ix3 p q d)).trans ?_
  refine encW_congr (overBins_apply P0 p q d)
    ((overFeatures_apply (asRow P1) p q d).trans (asRow_apply P1 d))
    ((overFeatures_apply (asRow P2) p q d).trans (asRow_apply P2 d)) ?_
  refine (overFeatures_apply (subf (asRow P2) (asRow P1)) p q d).trans ?_
  exact congrArg₂ FloatOps.subf (asRow_apply P2 d) (asRow_apply P1 d)

end Cert.KernelIdeal.Body

end
-- ==== Proof.Edges.lean ====
/-
  The two rows of edges the region finds.

  Before the region the host cuts the `65` edges into the lower edges `B[0:64]` and the upper edges `B[1:65]` and
  views each as one row `[1, 64]`; the region stages these rows whole at every grid point. Entry `(0, d)` of the
  lower row is edge `d` and entry `(0, d)` of the upper row is edge `d + 1`: a row keeps the row-major position of
  the `64` values, and the cut shifts by its offset.
-/
import proofs.«153169_j58961311039690_1_alg».proof.Proof.Gen.KernelIdeal.Frame
import proofs.«153169_j58961311039690_1_alg».proof.Proof.Encoding
import Idealize.ShloMosaic.Lib.Pipeline.Value
import Idealize.ShloMosaic.Lib.StableHlo.Run

noncomputable section

namespace Cert.KernelIdeal.Edges

open Cert.KernelIdeal Cert.KernelIdeal.Gen Cert.Encoding
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- The lower row as the region finds it: the first `64` edges, as a row. -/
theorem lower_row (c : Dev nD) :
    (V m c main_v1 : S1x64.Idx → Elt F .f32)
      = shapeCast S1x64 (extractStridedSlice S64 ![0] (m ((c : Thread nD τ).loc main_arg1)) slices_S65_S64_0) shapeCasts_S64_S1x64 := by
  dsimp only [Gen.V, Gen.hostOps0]; after_results; rfl

/-- The upper row as the region finds it: the last `64` edges, as a row. -/
theorem upper_row (c : Dev nD) :
    (V m c main_v3 : S1x64.Idx → Elt F .f32)
      = shapeCast S1x64 (extractStridedSlice S64 ![1] (m ((c : Thread nD τ).loc main_arg1)) slices_S65_S64_1) shapeCasts_S64_S1x64 := by
  dsimp only [Gen.V, Gen.hostOps0]; after_results; rfl

/-- Entry `(0, d)` of the lower row is edge `d`. -/
theorem lower_apply (c : Dev nD) (d : Fin 64) :
    (V m c main_v1 : S1x64.Idx → Elt F .f32) (ix2 (0 : Fin 1) d) = m ((c : Thread nD τ).loc main_arg1) (loEdge d) := by
  refine (congrFun (lower_row m c) (ix2 (0 : Fin 1) d)).trans ?_
  refine (shapeCast_apply _ _ (ix2 (0 : Fin 1) d) (ix1 d) (by
    rw [Shape.rowMajor_val_one, Shape.rowMajor_val_two]
    show d.val = 0 * 64 + d.val; omega)).trans ?_
  exact extractStridedSlice_apply ![0] _ slices_S65_S64_0 (ix1 d) (loEdge d) (fun a => match a with
    | ⟨0, _⟩ => by show d.val = 0 + d.val; omega)

/-- Entry `(0, d)` of the upper row is edge `d + 1`. -/
theorem upper_apply (c : Dev nD) (d : Fin 64) :
    (V m c main_v3 : S1x64.Idx → Elt F .f32) (ix2 (0 : Fin 1) d) = m ((c : Thread nD τ).loc main_arg1) (hiEdge d) := by
  refine (congrFun (upper_row m c) (ix2 (0 : Fin 1) d)).trans ?_
  refine (shapeCast_apply _ _ (ix2 (0 : Fin 1) d) (ix1 d) (by
    rw [Shape.rowMajor_val_one, Shape.rowMajor_val_two]
    show d.val = 0 * 64 + d.val; omega)).trans ?_
  exact extractStridedSlice_apply ![1] _ slices_S65_S64_1 (ix1 d) (hiEdge d) (fun a => match a with
    | ⟨0, _⟩ => by show 1 + d.val = 1 + d.val; omega)

end Cert.KernelIdeal.Edges

end
-- ==== Proof.Blocks.lean ====
/-
  From blocks to the whole array: the kernel's result is the encoding.

  The grid has `2 × 16` points; point `(g, h)` stages block `(g, h)` of the features (`128 × 128`), the two rows of
  edges whole, and writes back block `(g, h, 0)` of the result (`128 × 128 × 64`). So the array index under entry
  `(p, q, d)` of the point's output block is `(128 g + p, 128 h + q, d)`, the feature the body read for it is the
  feature at `(128 g + p, 128 h + q)`, and the edges it read are edges `d` and `d + 1`: what the point writes back is
  its block of `encoded X B`. The `32` blocks tile the result — index `(b, l, d)` lies in the block of the point
  `(b / 128, l / 128)` — so after the run the result array IS `encoded X B`.
-/
import proofs.«153169_j58961311039690_1_alg».proof.Proof.Gen.KernelIdeal.Frame
import proofs.«153169_j58961311039690_1_alg».proof.Proof.Payload
import proofs.«153169_j58961311039690_1_alg».proof.Proof.Edges
import Idealize.ShloMosaic.Lib.Pipeline.Value

noncomputable section

namespace Cert.KernelIdeal.Blocks

open Cert.KernelIdeal Cert.KernelIdeal.Gen Cert.KernelIdeal.Body Cert.KernelIdeal.Edges Cert.Encoding
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-! ## The index maps, over the 32 points -/

/-- The feature window moves with the result window on the two feature axes; the two rows of edges stay at block
    `(0, 0)`; the result's block index is `(g, h, 0)` with `g ≤ 1`, `h ≤ 15`. -/
theorem index_facts : ∀ t : Fin cfg0.N,
    win0_0.index t (0 : Fin 2) = win0_3.index t (0 : Fin 3)
    ∧ win0_0.index t (1 : Fin 2) = win0_3.index t (1 : Fin 3)
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 1 ∧ win0_3.index t (1 : Fin 3) ≤ 15 ∧ win0_3.index t (2 : Fin 3) = 0 :=
  (by decide +kernel : ∀ t : Fin grid0.N, _)

/-- Every block `(g, h, 0)` of the result is some point's. -/
theorem index_onto : ∀ (g : Fin 2) (h : Fin 16), ∃ t : Fin cfg0.N, win0_3.index t = ![g.val, h.val, 0] :=
  (by decide +kernel : ∀ (g : Fin 2) (h : Fin 16), ∃ t : Fin grid0.N, win0_3.index t = ![g.val, h.val, 0])

/-! ## What a point read, for one entry of its output block -/

/-- The array index under entry `(p, q, d)` of point `t`'s output block. -/
abbrev under (t : Fin cfg0.N) (p q : Fin 128) (d : Fin 64) : S256x2048x64.Idx :=
  ((cfg0.win 3).blk t).view.emb (ix3 p q d)

/-- The feature read for entry `(p, q, d)` is the feature at the first two coordinates of the index under it. -/
theorem feature_read (c : Dev nD) (t : Fin cfg0.N) (p q : Fin 128) (d : Fin 64) :
    (iblk m c 0 t : S128x128.Idx → Elt F .f32) (ix2 p q)
      = m ((c : Thread nD τ).loc main_arg0) (ix2 (n0 := 256) (n1 := 2048) (under t p q d 0) (under t p q d 1)) := by
  obtain ⟨e0, e1, -⟩ := index_facts t
  show V m c main_arg0 (((cfg0.win 0).blk t).view.emb (ix2 p q)) = _
  refine (congrFun (V_main_arg0 m c) _).trans ?_
  refine congrArg (m ((c : Thread nD τ).loc main_arg0)) (funext fun a => Fin.ext ?_)
  match a with
  | ⟨0, _⟩ => show win0_0.index t (0 : Fin 2) * 128 + 1 * p.val = win0_3.index t (0 : Fin 3) * 128 + 1 * p.val; omega
  | ⟨1, _⟩ => show win0_0.index t (1 : Fin 2) * 128 + 1 * q.val = win0_3.index t (1 : Fin 3) * 128 + 1 * q.val; omega

/-- The last coordinate of the index under entry `(p, q, d)` is `d`: the result is not cut along the bins. -/
theorem under_bin (t : Fin cfg0.N) (p q : Fin 128) (d : Fin 64) : under t p q d 2 = d := by
  obtain ⟨-, -, -, -, -, -, -, -, e8⟩ := index_facts t
  apply Fin.ext
  show win0_3.index t (2 : Fin 3) * 64 + 1 * d.val = d.val; omega

/-- The lower edge read for entry `(p, q, d)` is edge `d`. -/
theorem lower_read (c : Dev nD) (t : Fin cfg0.N) (p q : Fin 128) (d : Fin 64) :
    (iblk m c 1 t : S1x64.Idx → Elt F .f32) (ix2 (0 : Fin 1) d)
      = m ((c : Thread nD τ).loc main_arg1) (loEdge (under t p q d 2)) := by
  obtain ⟨-, -, e2, e3, -⟩ := index_facts t
  have hsrc : (((cfg0.win 1).blk t).view.emb (ix2 (0 : Fin 1) d) : S1x64.Idx) = ix2 (0 : Fin 1) d := by
    funext a; apply Fin.ext
    match a with
    | ⟨0, _⟩ => show win0_1.index t (0 : Fin 2) * 1 + 1 * 0 = 0; omega
    | ⟨1, _⟩ => show win0_1.index t (1 : Fin 2) * 64 + 1 * d.val = d.val; omega
  show (V m c main_v1 : S1x64.Idx → Elt F .f32) (((cfg0.win 1).blk t).view.emb (ix2 (0 : Fin 1) d)) = _
  refine (congrArg (V m c main_v1 : S1x64.Idx → Elt F .f32) hsrc).trans ?_
  refine (lower_apply m c d).trans ?_
  exact congrArg (fun e => m ((c : Thread nD τ).loc main_arg1) (loEdge e)) (under_bin t p q d).symm

/-- The upper edge read for entry `(p, q, d)` is edge `d + 1`. -/
theorem upper_read (c : Dev nD) (t : Fin cfg0.N) (p q : Fin 128) (d : Fin 64) :
    (iblk m c 2 t : S1x64.Idx → Elt F .f32) (ix2 (0 : Fin 1) d)
      = m ((c : Thread nD τ).loc main_arg1) (hiEdge (under t p q d 2)) := by
  obtain ⟨-, -, -, -, e4, e5, -⟩ := index_facts t
  have hsrc : (((cfg0.win 2).blk t).view.emb (ix2 (0 : Fin 1) d) : S1x64.Idx) = ix2 (0 : Fin 1) d := by
    funext a; apply Fin.ext
    match a with
    | ⟨0, _⟩ => show win0_2.index t (0 : Fin 2) * 1 + 1 * 0 = 0; omega
    | ⟨1, _⟩ => show win0_2.index t (1 : Fin 2) * 64 + 1 * d.val = d.val; omega
  show (V m c main_v3 : S1x64.Idx → Elt F .f32) (((cfg0.win 2).blk t).view.emb (ix2 (0 : Fin 1) d)) = _
  refine (congrArg (V m c main_v3 : S1x64.Idx → Elt F .f32) hsrc).trans ?_
  refine (upper_apply m c d).trans ?_
  exact congrArg (fun e => m ((c : Thread nD τ).loc main_arg1) (hiEdge e)) (under_bin t p q d).symm

/-! ## What a point writes back -/

/-- WHAT POINT `t` WRITES BACK is its block of the encoding of the two arguments. -/
theorem flushed_eq (c : Dev nD) (t : Fin cfg0.N) :
    (dats m 0 c).flushed 3 t
      = ((cfg0.win 3).blk t).view.read (Elt F)
          (encoded (m ((c : Thread nD τ).loc main_arg0)) (m ((c : Thread nD τ).loc main_arg1))) := by
  show (cfg0.win 3).cut (grid0.coords t) ((dats m 0 c).after 3 t) = _
  rw [after0_3]
  unfold out0_3
  rw [View.canon_unit_zero zero3]
  simp only [View.ld_unit_zero (S := S128x128) zero2, View.ld_unit_zero (S := S1x64) zero2]
  funext j
  obtain ⟨p, q, d, rfl⟩ : ∃ (p : Fin 128) (q : Fin 128) (d : Fin 64), j = ix3 p q d := ⟨j 0, j 1, j 2, eq_ix3 j⟩
  show k0_pay1 (iblk m c 0 t) (iblk m c 1 t) (iblk m c 2 t) (ix3 p q d)
      = encoded (m ((c : Thread nD τ).loc main_arg0)) (m ((c : Thread nD τ).loc main_arg1)) (under t p q d)
  refine (stored_apply (iblk m c 0 t) (iblk m c 1 t) (iblk m c 2 t) p q d).trans ?_
  exact enc_congr (feature_read m c t p q d) (lower_read m c t p q d) (upper_read m c t p q d)

/-! ## The blocks tile the result -/

/-- An index of the result is in point `t`'s block iff each coordinate is in the block's range on its axis. -/
theorem mem_blk (t : Fin cfg0.N) (i : S256x2048x64.Idx) :
    i ∈ ((cfg0.win 3).blk t).view.set ↔ ∀ a : Fin 3, win0_3.index t a * S128x128x64.size a ≤ (i a).val
      ∧ (i a).val < win0_3.index t a * S128x128x64.size a + S128x128x64.size a := by
  show i ∈ ((View.whole main_v4).slice (win0_3.rect t)).set ↔ _
  rw [View.set_slice_whole, Rect.mem_set_unit]
  exact Iff.rfl

/-- Index `(b, l, d)` is in the block of the point `(b / 128, l / 128)`, which writes back. -/
theorem cover (i : S256x2048x64.Idx) :
    ∃ t : Fin cfg0.N, (cfg0.win 3).flush t = true ∧ i ∈ ((cfg0.win 3).blk t).view.set := by
  have hi0 : (i 0).val < 256 := (i 0).isLt
  have hi1 : (i 1).val < 2048 := (i 1).isLt
  have hi2 : (i 2).val < 64 := (i 2).isLt
  obtain ⟨t, ht⟩ := index_onto ⟨(i 0).val / 128, by omega⟩ ⟨(i 1).val / 128, by omega⟩
  have q0 : win0_3.index t (0 : Fin 3) = (i 0).val / 128 := congrFun ht 0
  have q1 : win0_3.index t (1 : Fin 3) = (i 1).val / 128 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 128 ≤ (i 0).val ∧ (i 0).val < win0_3.index t (0 : Fin 3) * 128 + 128; omega
  | ⟨1, _⟩ => show win0_3.index t (1 : Fin 3) * 128 ≤ (i 1).val ∧ (i 1).val < win0_3.index t (1 : Fin 3) * 128 + 128; omega
  | ⟨2, _⟩ => show win0_3.index t (2 : Fin 3) * 64 ≤ (i 2).val ∧ (i 2).val < win0_3.index t (2 : Fin 3) * 64 + 64; omega

/-! ## The result array, and the run -/

/-- THE RESULT ARRAY after the run is the encoding of the two arguments. -/
theorem final (c : Dev nD) :
    (dats m 0 c).arrAt 3 cfg0.N
      = encoded (m ((c : Thread nD τ).loc main_arg0)) (m ((c : Thread nD τ).loc main_arg1)) :=
  (dats m 0 c).arrAt_eq_of_cover 3 _ (fun t _ => flushed_eq m c t) cover

/-- THE KERNEL'S RUN: every weakly fair execution terminates with the result at the encoding of the arguments, the
    arguments unchanged. -/
theorem run : θ_run defs (onTc (τ := τ) (main (F := F))) ⟨m, fun _ => 0, ρ⟩ fun r => ∀ c : Dev nD,
      r.2.mem ((c : Thread nD τ).loc main_v4)
        = encoded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Blocks

end
-- ==== Proof.lean ====
/-
  A piecewise-linear bin encoding: the tiled kernel against the whole-array reference.

  Both programs take `256 × 2048` features `X` and `65` bin edges `B` and return the `[256, 2048, 64]` array whose
  entry `(b, l, d)` encodes `X (b, l)` against bin `d = [B d, B (d + 1))`:
      `(x - lo) / (hi - lo)` if `lo ≤ x < hi`,   `0` if not and `x < hi`,   `1` otherwise
  (`Cert.Encoding.encoded`, Proof/Encoding.lean).

  The reference does it on whole arrays: it repeats `X` over the bins and the lower edges, upper edges and widths
  over the features, and combines them entry by entry (Proof/RefEncoding.lean, over the reference's run read one
  operation at a time). The kernel cuts the host's two rows of edges once (Proof/Edges.lean) and walks a `2 × 16` grid;
  at point `(g, h)` it does the same repetition and combination on block `(g, h)` of the features
  (Proof/Payload.lean) and writes block `(g, h, 0)` of the result; each point's block is its block of the encoding and
  the `32` blocks tile the result (Proof/Blocks.lean). Entry by entry the two programs evaluate the SAME term — same
  comparisons, same subtraction, same quotient (the host's and the vector unit's are one function of the extended
  reals), same two constants — so no law of arithmetic joins them and the inputs' finiteness is never used.

  The three frames are the generated ones (the reference's is its run with the result dropped); the idealization
  rewrote nothing, so `preserves` is trivial.
-/
import proofs.«153169_j58961311039690_1_alg».proof.Defs
import proofs.«153169_j58961311039690_1_alg».proof.Proof.Gen.Kernel
import proofs.«153169_j58961311039690_1_alg».proof.Proof.Gen.Kernel.Skeleton
import proofs.«153169_j58961311039690_1_alg».proof.Proof.Gen.Kernel.Launch
import proofs.«153169_j58961311039690_1_alg».proof.Proof.Gen.Kernel.Points
import proofs.«153169_j58961311039690_1_alg».proof.Proof.Gen.Kernel.Frame
import proofs.«153169_j58961311039690_1_alg».proof.Proof.Gen.KernelIdeal
import proofs.«153169_j58961311039690_1_alg».proof.Proof.Gen.KernelIdeal.Skeleton
import proofs.«153169_j58961311039690_1_alg».proof.Proof.Gen.KernelIdeal.Launch
import proofs.«153169_j58961311039690_1_alg».proof.Proof.Gen.KernelIdeal.Points
import proofs.«153169_j58961311039690_1_alg».proof.Proof.Gen.KernelIdeal.Frame
import proofs.«153169_j58961311039690_1_alg».proof.Proof.Gen.ReferenceIdeal
import proofs.«153169_j58961311039690_1_alg».proof.Proof.Gen.Pre_finite_inputs
import proofs.«153169_j58961311039690_1_alg».proof.Proof.Gen.ReferenceIdeal.Run
import proofs.«153169_j58961311039690_1_alg».proof.Proof.Gen.ReferenceIdeal.Read
import proofs.«153169_j58961311039690_1_alg».proof.Proof.Encoding
import proofs.«153169_j58961311039690_1_alg».proof.Proof.RefEncoding
import proofs.«153169_j58961311039690_1_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories agreeing on `X` and `B`, both programs end with the result at
    `encoded X B`: the kernel block by block, the reference on whole arrays. -/
theorem algebraic : Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v21_eq _ _).trans (Cert.ReferenceIdeal.RefValue.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
